-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x32x64 : Shape := ⟨3, ![40000, 32, 64]⟩
abbrev S40000x4 : Shape := ⟨2, ![40000, 4]⟩
abbrev S_ : Shape := ⟨0, ![]⟩

class Facts : Prop where
  bcast_S_S40000x32x64 : S_.BroadcastsInDim S40000x32x64 (![] : Fin 0 → Fin S40000x32x64.rank)
  reducesTo_S40000x32x64_S_d0_1_2 : S40000x32x64.ReducesTo [0, 1, 2] S_
  h_S_ : 0 < S_.numel

variable [Facts]

def fn {F : FTy → Type} [FloatOps F] (main_arg0 : FVec F S40000x32x64 .f32) (main_arg1 : IVec S40000x4 32) : IVec S_ 1 :=
  let main_v0 : FVec F S40000x32x64 .f32 := Host.absf main_arg0
  let main_cst : FVec F S_ .f32 := constant S_ .f32 0x7F800000#32
  let main_v1 : FVec F S40000x32x64 .f32 := broadcastInDim S40000x32x64 ![] bcast_S_S40000x32x64 main_cst
  let main_v2 : IVec S40000x32x64 1 := cmpf .olt main_v0 main_v1
  let main_c : IVec S_ 1 := constantI S_ 1 1#1
  let main_v3 : IVec S_ 1 := (fun x v => Host.reduce IntOp.andi x v reducesTo_S40000x32x64_S_d0_1_2 h_S_) main_v2 main_c
  main_v3
-- ==== Kernel.lean ====
abbrev S40000x32x64 : Shape := ⟨3, ![40000, 32, 64]⟩
abbrev S40000x4 : Shape := ⟨2, ![40000, 4]⟩
abbrev S40000x64 : Shape := ⟨2, ![40000, 64]⟩
abbrev S1000x32x64 : Shape := ⟨3, ![1000, 32, 64]⟩
abbrev S1000x64 : Shape := ⟨2, ![1000, 64]⟩
abbrev S40000x1 : Shape := ⟨2, ![40000, 1]⟩
abbrev S40000 : Shape := ⟨1, ![40000]⟩
abbrev S_ : Shape := ⟨0, ![]⟩
abbrev S4x64x512x512 : Shape := ⟨4, ![4, 64, 512, 512]⟩
abbrev S40000x3 : Shape := ⟨2, ![40000, 3]⟩

abbrev nBuf : Space → Nat
  | .hbm => 37
  | .vmem => 4
  | .smem => 0
  | _ => 0

abbrev bufTy : (tb : Table) → Fin (tcTables nBuf tb) → BufTy
  | .hbm, ⟨0, _⟩ => ⟨S40000x32x64, .f32⟩
  | .hbm, ⟨1, _⟩ => ⟨S40000x4, .i32⟩
  | .hbm, ⟨2, _⟩ => ⟨S40000x64, .f32⟩
  | .hbm, ⟨3, _⟩ => ⟨S40000x1, .i32⟩
  | .hbm, ⟨4, _⟩ => ⟨S40000, .i32⟩
  | .hbm, ⟨5, _⟩ => ⟨S40000x1, .i32⟩
  | .hbm, ⟨6, _⟩ => ⟨S40000, .i32⟩
  | .hbm, ⟨7, _⟩ => ⟨S40000x1, .i32⟩
  | .hbm, ⟨8, _⟩ => ⟨S40000, .i32⟩
  | .hbm, ⟨9, _⟩ => ⟨S_, .f32⟩
  | .hbm, ⟨10, _⟩ => ⟨S4x64x512x512, .f32⟩
  | .hbm, ⟨11, _⟩ => ⟨S_, .i32⟩
  | .hbm, ⟨12, _⟩ => ⟨S40000, .i32⟩
  | .hbm, ⟨13, _⟩ => ⟨S40000, .i1⟩
  | .hbm, ⟨14, _⟩ => ⟨S_, .i32⟩
  | .hbm, ⟨15, _⟩ => ⟨S40000, .i32⟩
  | .hbm, ⟨16, _⟩ => ⟨S40000, .i32⟩
  | .hbm, ⟨17, _⟩ => ⟨S40000, .i32⟩
  | .hbm, ⟨18, _⟩ => ⟨S_, .i32⟩
  | .hbm, ⟨19, _⟩ => ⟨S40000, .i32⟩
  | .hbm, ⟨20, _⟩ => ⟨S40000, .i1⟩
  | .hbm, ⟨21, _⟩ => ⟨S_, .i32⟩
  | .hbm, ⟨22, _⟩ => ⟨S40000, .i32⟩
  | .hbm, ⟨23, _⟩ => ⟨S40000, .i32⟩
  | .hbm, ⟨24, _⟩ => ⟨S40000, .i32⟩
  | .hbm, ⟨25, _⟩ => ⟨S_, .i32⟩
  | .hbm, ⟨26, _⟩ => ⟨S40000, .i32⟩
  | .hbm, ⟨27, _⟩ => ⟨S40000, .i1⟩
  | .hbm, ⟨28, _⟩ => ⟨S_, .i32⟩
  | .hbm, ⟨29, _⟩ => ⟨S40000, .i32⟩
  | .hbm, ⟨30, _⟩ => ⟨S40000, .i32⟩
  | .hbm, ⟨31, _⟩ => ⟨S40000, .i32⟩
  | .hbm, ⟨32, _⟩ => ⟨S40000x1, .i32⟩
  | .hbm, ⟨33, _⟩ => ⟨S40000x1, .i32⟩
  | .hbm, ⟨34, _⟩ => ⟨S40000x1, .i32⟩
  | .hbm, ⟨35, _⟩ => ⟨S40000x3, .i32⟩
  | .hbm, ⟨36, _⟩ => ⟨S4x64x512x512, .f32⟩
  | .local _ .vmem, ⟨0, _⟩ => ⟨S1000x32x64, .f32⟩
  | .local _ .vmem, ⟨1, _⟩ => ⟨S1000x32x64, .f32⟩
  | .local _ .vmem, ⟨2, _⟩ => ⟨S1000x64, .f32⟩
  | .local _ .vmem, ⟨3, _⟩ => ⟨S1000x64, .f32⟩
  | _, _ => ⟨S40000x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_3 : Ref sig .tc := ⟨.hbm, 25, rfl⟩
abbrev main_v18 : Ref sig .tc := ⟨.hbm, 26, rfl⟩
abbrev main_v19 : Ref sig .tc := ⟨.hbm, 27, rfl⟩
abbrev main_c_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![40], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x32x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1000x32x64_S1000x32x64_0_0_0 : ∀ a, (![0, 0, 0] : Fin 3 → Nat) a + S1000x32x64.size a ≤ S1000x32x64.size a
  h_S1000x32x64 : 0 < S1000x32x64.numel
  reduces_S1000x32x64_S1000x64 : S1000x32x64.Reduces [1] S1000x64
  inb_S1000x64_S1000x64_0_0 : ∀ a, (![0, 0] : Fin 2 → Nat) a + S1000x64.size a ≤ S1000x64.size a
  h_S1000x64 : 0 < S1000x64.numel
  slices_S40000x4_S40000x1_0_0 : S40000x4.Slices ![0, 0] S40000x1
  shapeCasts_S40000x1_S40000 : S40000x1.ShapeCasts S40000
  slices_S40000x4_S40000x1_0_2 : S40000x4.Slices ![0, 2] S40000x1
  slices_S40000x4_S40000x1_0_3 : S40000x4.Slices ![0, 3] S40000x1
  bcast_S_S4x64x512x512 : S_.BroadcastsInDim S4x64x512x512 (![] : Fin 0 → Fin S4x64x512x512.rank)
  bcast_S_S40000 : S_.BroadcastsInDim S40000 (![] : Fin 0 → Fin S40000.rank)
  bcast_S40000_S40000x1_0 : S40000.BroadcastsInDim S40000x1 (![0] : Fin 1 → Fin S40000x1.rank)
  concatenates_S40000x1_S40000x1_S40000x1_S40000x3_d1 : Shape.Concatenates [S40000x1, S40000x1, S40000x1] S40000x3 1
  scatter_S4x64x512x512_S40000x3_S40000x64_1_023_023_1_wf : ScatterDims.WF S4x64x512x512 S40000x3 S40000x64 [1] [0, 2, 3] [0, 2, 3] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x32x64.size a ≤ S40000x32x64.size a
  hwx0_0 : ∀ i : grid0.Coords, EltTy.bits .f32 = 32 ∨ (Rect.block (s := S40000x32x64) S1000x32x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x64.size a ≤ S40000x64.size a
  hwx0_1 : ∀ i : grid0.Coords, EltTy.bits .f32 = 32 ∨ (Rect.block (s := S40000x64) S1000x64.size (cc0_transform_1 i) (hinb0_1 i)).WholeWords (EltTy.packing .f32)

variable [Facts₀]

def scatter_S4x64x512x512_S40000x3_S40000x64_1_023_023_1 : ScatterDims S4x64x512x512 S40000x3 S40000x64 where
  updateWindowDims := [1]
  insertedWindowDims := [0, 2, 3]
  scatterDimsToOperandDims := [0, 2, 3]
  indexVectorDim := 1
  wf := scatter_S4x64x512x512_S40000x3_S40000x64_1_023_023_1_wf

abbrev win0_0 : Pipeline.Window sig grid0 :=
  Pipeline.Window.ofSpec (Memref.whole main_arg0) S1000x32x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1000x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S40000x32x64 : Shape := ⟨3, ![40000, 32, 64]⟩
abbrev S40000x4 : Shape := ⟨2, ![40000, 4]⟩
abbrev S_ : Shape := ⟨0, ![]⟩
abbrev S40000x64 : Shape := ⟨2, ![40000, 64]⟩
abbrev S40000x1 : Shape := ⟨2, ![40000, 1]⟩
abbrev S40000 : Shape := ⟨1, ![40000]⟩
abbrev S4x64x512x512 : Shape := ⟨4, ![4, 64, 512, 512]⟩
abbrev S40000x3 : Shape := ⟨2, ![40000, 3]⟩

abbrev nBuf : Space → Nat
  | .hbm => 41
  | .vmem => 0
  | .smem => 0
  | _ => 0

abbrev bufTy : (tb : Table) → Fin (tcTables nBuf tb) → BufTy
  | .hbm, ⟨0, _⟩ => ⟨S40000x32x64, .f32⟩
  | .hbm, ⟨1, _⟩ => ⟨S40000x4, .i32⟩
  | .hbm, ⟨2, _⟩ => ⟨S_, .f32⟩
  | .hbm, ⟨3, _⟩ => ⟨S40000x64, .f32⟩
  | .hbm, ⟨4, _⟩ => ⟨S_, .f32⟩
  | .hbm, ⟨5, _⟩ => ⟨S40000x64, .f32⟩
  | .hbm, ⟨6, _⟩ => ⟨S40000x64, .f32⟩
  | .hbm, ⟨7, _⟩ => ⟨S40000x1, .i32⟩
  | .hbm, ⟨8, _⟩ => ⟨S40000, .i32⟩
  | .hbm, ⟨9, _⟩ => ⟨S40000x1, .i32⟩
  | .hbm, ⟨10, _⟩ => ⟨S40000, .i32⟩
  | .hbm, ⟨11, _⟩ => ⟨S40000x1, .i32⟩
  | .hbm, ⟨12, _⟩ => ⟨S40000, .i32⟩
  | .hbm, ⟨13, _⟩ => ⟨S_, .f32⟩
  | .hbm, ⟨14, _⟩ => ⟨S4x64x512x512, .f32⟩
  | .hbm, ⟨15, _⟩ => ⟨S_, .i32⟩
  | .hbm, ⟨16, _⟩ => ⟨S40000, .i32⟩
  | .hbm, ⟨17, _⟩ => ⟨S40000, .i1⟩
  | .hbm, ⟨18, _⟩ => ⟨S_, .i32⟩
  | .hbm, ⟨19, _⟩ => ⟨S40000, .i32⟩
  | .hbm, ⟨20, _⟩ => ⟨S40000, .i32⟩
  | .hbm, ⟨21, _⟩ => ⟨S40000, .i32⟩
  | .hbm, ⟨22, _⟩ => ⟨S_, .i32⟩
  | .hbm, ⟨23, _⟩ => ⟨S40000, .i32⟩
  | .hbm, ⟨24, _⟩ => ⟨S40000, .i1⟩
  | .hbm, ⟨25, _⟩ => ⟨S_, .i32⟩
  | .hbm, ⟨26, _⟩ => ⟨S40000, .i32⟩
  | .hbm, ⟨27, _⟩ => ⟨S40000, .i32⟩
  | .hbm, ⟨28, _⟩ => ⟨S40000, .i32⟩
  | .hbm, ⟨29, _⟩ => ⟨S_, .i32⟩
  | .hbm, ⟨30, _⟩ => ⟨S40000, .i32⟩
  | .hbm, ⟨31, _⟩ => ⟨S40000, .i1⟩
  | .hbm, ⟨32, _⟩ => ⟨S_, .i32⟩
  | .hbm, ⟨33, _⟩ => ⟨S40000, .i32⟩
  | .hbm, ⟨34, _⟩ => ⟨S40000, .i32⟩
  | .hbm, ⟨35, _⟩ => ⟨S40000, .i32⟩
  | .hbm, ⟨36, _⟩ => ⟨S40000x1, .i32⟩
  | .hbm, ⟨37, _⟩ => ⟨S40000x1, .i32⟩
  | .hbm, ⟨38, _⟩ => ⟨S40000x1, .i32⟩
  | .hbm, ⟨39, _⟩ => ⟨S40000x3, .i32⟩
  | .hbm, ⟨40, _⟩ => ⟨S4x64x512x512, .f32⟩
  | _, _ => ⟨S40000x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_3 : Ref sig .tc := ⟨.hbm, 22, rfl⟩
abbrev main_v15 : Ref sig .tc := ⟨.hbm, 23, rfl⟩
abbrev main_v16 : Ref sig .tc := ⟨.hbm, 24, rfl⟩
abbrev main_c_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_5 : Ref sig .tc := ⟨.hbm, 29, rfl⟩
abbrev main_v20 : Ref sig .tc := ⟨.hbm, 30, rfl⟩
abbrev main_v21 : Ref sig .tc := ⟨.hbm, 31, rfl⟩
abbrev main_c_6 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]

class Facts₀ : Prop where
  reducesTo_S40000x32x64_S40000x64_d1 : S40000x32x64.ReducesTo [1] S40000x64
  h_S_ : 0 < S_.numel
  bcast_S_S40000x64 : S_.BroadcastsInDim S40000x64 (![] : Fin 0 → Fin S40000x64.rank)
  slices_S40000x4_S40000x1_0_0 : S40000x4.Slices ![0, 0] S40000x1
  shapeCasts_S40000x1_S40000 : S40000x1.ShapeCasts S40000
  slices_S40000x4_S40000x1_0_2 : S40000x4.Slices ![0, 2] S40000x1
  slices_S40000x4_S40000x1_0_3 : S40000x4.Slices ![0, 3] S40000x1
  bcast_S_S4x64x512x512 : S_.BroadcastsInDim S4x64x512x512 (![] : Fin 0 → Fin S4x64x512x512.rank)
  bcast_S_S40000 : S_.BroadcastsInDim S40000 (![] : Fin 0 → Fin S40000.rank)
  bcast_S40000_S40000x1_0 : S40000.BroadcastsInDim S40000x1 (![0] : Fin 1 → Fin S40000x1.rank)
  concatenates_S40000x1_S40000x1_S40000x1_S40000x3_d1 : Shape.Concatenates [S40000x1, S40000x1, S40000x1] S40000x3 1
  scatter_S4x64x512x512_S40000x3_S40000x64_1_023_023_1_wf : ScatterDims.WF S4x64x512x512 S40000x3 S40000x64 [1] [0, 2, 3] [0, 2, 3] 1

variable [Facts₀]

def scatter_S4x64x512x512_S40000x3_S40000x64_1_023_023_1 : ScatterDims S4x64x512x512 S40000x3 S40000x64 where
  updateWindowDims := [1]
  insertedWindowDims := [0, 2, 3]
  scatterDimsToOperandDims := [0, 2, 3]
  indexVectorDim := 1
  wf := scatter_S4x64x512x512_S40000x3_S40000x64_1_023_023_1_wf

class Facts : Prop extends Facts₀ where

variable [Facts]
-- ==== Proof.PoolFrameBits.lean ====
/-
  The frame run of `Kernel`: one pallas_call on a grid of 40 points, each point averaging the 32 points of 1000
  pillars, followed by host lines that wrap the three voxel coordinates, join them into an index table and scatter
  the pillar features into the dense grid.

  Nothing runs before the region, so the region finds every buffer as launched. At grid point `t` the body reads the
  block of 1000 pillars `[1000 t, 1000 t + 1000)` of the point features, stores into the output block the sum over
  the 32 points divided by 32, and touches nothing else (it also loads the output block, and discards what it read).
  So after the body the input block is unchanged and the output block is that mean of the input block. The host lines
  after the region each write one buffer of their own, never an argument array and never an array the region stages;
  hence both argument arrays end as launched, the pillar features end at what the 40 points wrote back, and every
  later buffer ends at the host lines' values of those. Stated for any float instance.
-/
import proofs.«140408_j50783693308343_1_alg».proof.Proof.Gen.Kernel.Launch
import proofs.«140408_j50783693308343_1_alg».proof.Proof.Gen.Kernel.Skeleton
import proofs.«140408_j50783693308343_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- Core `c`'s buffers when the region is entered: no host line comes first, so they are the launch contents. -/
abbrev atEntry (c : Dev nD) : Valuation τ sig (Elt F) :=
  StableHlo.after (List.flatten ([] : List (List (HloOp τ sig (Elt F))))) (fun b => m (c, b))
/-- The same, read at a TensorCore reference. -/
abbrev found (c : Dev nD) (b : Ref sig .tc) : Buf (Elt F) ((c : Thread nD τ).loc b) := atEntry m c (Proc.devRef .tc b)

/-- No host line after the region allocates. -/
theorem tail_fresh : (hostOps1 : List (HloOp τ sig (Elt F))).Forall fun op => op.fresh = ∅ := by
  simp only [List.Forall]; repeat' constructor

/-- @main is the region followed by the host lines. -/
theorem main_around (𝒱₀ : Variants) : Pipeline.HMainK (Ix := Unit) (Name := ℕ) (U := UR sig nD τ) (Lvl := ℕ) cfgs 0 defs₀ 𝒱₀ m (main (F := F)) (found m)
      (fun _ => Pipeline.chain [StableHlo.seq hostOps1]) :=
  Pipeline.hmain_around cfgs 0 defs₀ 𝒱₀ m main [] [hostOps1] (by simp only [List.Forall])
    (by simp only [List.Forall]) main_chain

/-- The host lines touch unscoped TensorCore buffers only: the region's two arrays and the buffers that bypass it. -/
theorem tail_within : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)

theorem tail_allocates_nothing : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp tail_fresh) op hop

/-- Each host line writes its own result buffer, which is neither the point features nor the pillar features. -/
theorem tail_keeps_arrays : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.nary_writes, StableHlo.reshape_writes, Finset.mem_singleton] <;> exact StableHlo.devRef_ne_of_ne (by decide)

/-- The region finds each argument array as launched. -/
theorem found_arg0 (c : Dev nD) : found m c main_arg0 = m ((c : Thread nD τ).loc main_arg0) := rfl
theorem found_arg1 (c : Dev nD) : found m c main_arg1 = m ((c : Thread nD τ).loc main_arg1) := rfl

/-- No host line after the region writes the coordinate table: it ends as launched. -/
theorem ends_arg1 (dats : (p : Fin _) → (c : Dev nD) → Dat τ (Elt F) Unit ℕ (UR sig nD τ) ℕ (cfgs p) c) (c : Dev nD) :
    Pipeline.afterTail₀ cfgs dats 0 (atEntry m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.nary_writes, StableHlo.reshape_writes, Finset.mem_singleton]
      repeat' apply And.intro
      all_goals exact StableHlo.devRef_ne_of_ne (by decide))),
    Pipeline.withArrays_of_ne _ c (atEntry m c) _ main_arg1 (by exact (by decide : ∀ w, Pipeline.arrRef spec0 w ≠ main_arg1))]
  exact found_arg1 m c

/-! ## Blocks -/

/-- Window `w`'s block at point `t`, cut from its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (found m c (Pipeline.arrRef spec0 w))

/-- The point-feature window is fetched whole at every point and the body leaves it in place, so its staging buffer
    holds the point's block whenever the body starts. -/
theorem input_before_of {c : Dev nD} (dat : Dat τ (Elt F) Unit ℕ (UR sig nD τ) ℕ cfg0 c) (hA : dat.A 0 = found m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the output block -/

/-- The whole input block and the whole output block, as rectangles. -/
abbrev wholeIn : Rect S1000x32x64 := Rect.unit (s := S1000x32x64) ![0, 0, 0] S1000x32x64.size inb_S1000x32x64_S1000x32x64_0_0_0
abbrev wholeOut : Rect S1000x64 := Rect.unit (s := S1000x64) ![0, 0] S1000x64.size inb_S1000x64_S1000x64_0_0

/-- The output block after the body, from the input block `x`: its one store, of the mean of `x` over the points. -/
def pooled (x : Vec F S1000x32x64 .f32) : Vec F S1000x64 .f32 :=
  View.canon [⟨wholeOut, k0_pay1 (View.ld x wholeIn)⟩]

/-- That store covers the block. -/
theorem store_covers (p : Vec F S1000x64 .f32) (y : S1000x64.Idx) :
    ∃ pc ∈ ([⟨wholeOut, p⟩] : List (View.Piece (Elt F) S1000x64 .f32)), y ∈ pc.1.set :=
  View.cover_of_tiled [⟨wholeOut, p⟩] S1000x64.size (by rfl) y

/-! ## The body -/

set_option maxHeartbeats 1000000 in
/-- The body on whole staging buffers, the input's at `x` and the output's at anything, returns with the input's still
    at `x` and the output's at `pooled x`. -/
theorem body_runs (c : Dev nD) (E : Set ℕ) (i : grid0.Coords) (arg1 : Memref sig .tc .vmem S1000x32x64 .f32) (harg1 : arg1.IsWhole) (arg2 : Memref sig .tc .vmem S1000x64 .f32) (harg2 : arg2.IsWhole)
    (x : Vec F S1000x32x64 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (pooled x)) -∗ K ⟨⟩))
      ⊢ wp frame (wpE (defs₀ (F := F)) Variants.none c none) E (cc0__mean_pool_kernel i arg1 harg1 arg2 harg2) K := by
  simp only [cc0__mean_pool_kernel_eq_skeleton]; unfold cc0__mean_pool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (store_covers _)

/-! ## The proof data -/

/-- On core `c`: the arrays as found; after the body at point `t` the input buffer at its block and the output buffer
    at the pooled block; the body uses nothing else. -/
def dats (_ : Fin 1) (c : Dev nD) : Dat τ (Elt F) Unit ℕ (UR sig nD τ) ℕ cfg0 c where
  A w := found m c (Pipeline.arrRef spec0 w)
  after w t := match w with
    | ⟨0, _⟩ => blockAt m c 0 t
    | ⟨1, _⟩ => pooled (blockAt m c 0 t)
  Φ _ := Pipeline.ΦA spec0 c
  q _ := fullShare
  owed _ := 0

theorem arrays_found (c : Dev nD) (w : Fin cfg0.W) : (dats m 0 c).A w = found m c (Pipeline.arrRef spec0 w) := by
  dsimp only [dats]

theorem after_input (c : Dev nD) (t : Fin cfg0.N) : (dats m 0 c).after 0 t = blockAt m c 0 t := by dsimp only [dats]
theorem after_output (c : Dev nD) (t : Fin cfg0.N) : (dats m 0 c).after 1 t = pooled (blockAt m c 0 t) := by dsimp only [dats]

theorem input_before (c : Dev nD) (t : Fin cfg0.N) (d) : (dats m 0 c).before 0 t d = blockAt m c 0 t :=
  input_before_of m (dats m 0 c) (arrays_found m c 0) (after_input m c) t d

/-! ## The body at a grid point -/

def callPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

def callPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem call_runs (c : Dev nD) (t : Fin cfg0.N) :
    callPre m c t ⊢ wp frame (wpE (defs₀ (F := F)) Variants.none c none) Set.univ (bodyAt0 t) (fun _ => callPost m c t) := by
  unfold callPre callPost bodyAt0
  simp only [input_before]
  rw [show (dats m 0 c).Φ t.succ = (dats m 0 c).Φ t.castSucc from rfl,
    show (dats m 0 c).owesAt () t.succ = (dats m 0 c).owesAt () t.castSucc from rfl,
    after_input, after_output]
  iintro ⟨HΦ, Ho, ⟨%d0, H0⟩, ⟨%d1, H1⟩⟩
  iapply (body_runs c Set.univ (grid0.coords t) _ _ _ _ (blockAt m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact call_runs m c t

/-! ## The run -/

set_option backward.isDefEq.respectTransparency.types false in
/-- Every weakly fair execution of @main terminates, faulting nowhere, with the region's two arrays at what the 40
    points leave and every other unscoped buffer at the host lines' values. -/
theorem run_main : θ_run defs (onTc (τ := τ) (main (F := F))) (s₀ m ρ) (Pipeline.FramePost cfgs (dats m) 0 (Pipeline.afterTail₀ cfgs (dats m) 0 (atEntry m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := atEntry m) (opss := [hostOps1]) (hsub := tail_within) (hfresh := tail_allocates_nothing) (hkeep := tail_keeps_arrays)
    (hmain := main_around m Variants.none) (hA := arrays_found m) (hΦ := fun _ _ => rfl)

/-- Both argument arrays end as launched: the point features are a staged input, which the pipeline only reads; the
    coordinate table bypasses the region and no host line writes it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats m 0 c).arrAt_in 0 rfl _).trans ((arrays_found m c 0).trans (found_arg0 m c))),
      ((h c).2 main_arg1 (Pipeline.mem_restRefs_of main_arg1 (by decide) (by decide))).trans (ends_arg1 m (dats m) c)⟩) (run_main m ρ)

end Cert.Kernel.Pool

end
-- ==== Proof.PoolFrameIdeal.lean ====
/-
  The frame run of `KernelIdeal`: one pallas_call on a grid of 40 points, each point averaging the 32 points of 1000
  pillars, followed by host lines that wrap the three voxel coordinates, join them into an index table and scatter
  the pillar features into the dense grid.

  Nothing runs before the region, so the region finds every buffer as launched. At grid point `t` the body reads the
  block of 1000 pillars `[1000 t, 1000 t + 1000)` of the point features, stores into the output block the sum over
  the 32 points divided by 32, and touches nothing else (it also loads the output block, and discards what it read).
  So after the body the input block is unchanged and the output block is that mean of the input block. The host lines
  after the region each write one buffer of their own, never an argument array and never an array the region stages;
  hence both argument arrays end as launched, the pillar features end at what the 40 points wrote back, and every
  later buffer ends at the host lines' values of those. Stated for any float instance.
-/
import proofs.«140408_j50783693308343_1_alg».proof.Proof.Gen.KernelIdeal.Launch
import proofs.«140408_j50783693308343_1_alg».proof.Proof.Gen.KernelIdeal.Skeleton
import proofs.«140408_j50783693308343_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- Core `c`'s buffers when the region is entered: no host line comes first, so they are the launch contents. -/
abbrev atEntry (c : Dev nD) : Valuation τ sig (Elt F) :=
  StableHlo.after (List.flatten ([] : List (List (HloOp τ sig (Elt F))))) (fun b => m (c, b))
/-- The same, read at a TensorCore reference. -/
abbrev found (c : Dev nD) (b : Ref sig .tc) : Buf (Elt F) ((c : Thread nD τ).loc b) := atEntry m c (Proc.devRef .tc b)

/-- No host line after the region allocates. -/
theorem tail_fresh : (hostOps1 : List (HloOp τ sig (Elt F))).Forall fun op => op.fresh = ∅ := by
  simp only [List.Forall]; repeat' constructor

/-- @main is the region followed by the host lines. -/
theorem main_around (𝒱₀ : Variants) : Pipeline.HMainK (Ix := Unit) (Name := ℕ) (U := UR sig nD τ) (Lvl := ℕ) cfgs 0 defs₀ 𝒱₀ m (main (F := F)) (found m)
      (fun _ => Pipeline.chain [StableHlo.seq hostOps1]) :=
  Pipeline.hmain_around cfgs 0 defs₀ 𝒱₀ m main [] [hostOps1] (by simp only [List.Forall])
    (by simp only [List.Forall]) main_chain

/-- The host lines touch unscoped TensorCore buffers only: the region's two arrays and the buffers that bypass it. -/
theorem tail_within : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)

theorem tail_allocates_nothing : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp tail_fresh) op hop

/-- Each host line writes its own result buffer, which is neither the point features nor the pillar features. -/
theorem tail_keeps_arrays : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.nary_writes, StableHlo.reshape_writes, Finset.mem_singleton] <;> exact StableHlo.devRef_ne_of_ne (by decide)

/-- The region finds each argument array as launched. -/
theorem found_arg0 (c : Dev nD) : found m c main_arg0 = m ((c : Thread nD τ).loc main_arg0) := rfl
theorem found_arg1 (c : Dev nD) : found m c main_arg1 = m ((c : Thread nD τ).loc main_arg1) := rfl

/-- No host line after the region writes the coordinate table: it ends as launched. -/
theorem ends_arg1 (dats : (p : Fin _) → (c : Dev nD) → Dat τ (Elt F) Unit ℕ (UR sig nD τ) ℕ (cfgs p) c) (c : Dev nD) :
    Pipeline.afterTail₀ cfgs dats 0 (atEntry m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.nary_writes, StableHlo.reshape_writes, Finset.mem_singleton]
      repeat' apply And.intro
      all_goals exact StableHlo.devRef_ne_of_ne (by decide))),
    Pipeline.withArrays_of_ne _ c (atEntry m c) _ main_arg1 (by exact (by decide : ∀ w, Pipeline.arrRef spec0 w ≠ main_arg1))]
  exact found_arg1 m c

/-! ## Blocks -/

/-- Window `w`'s block at point `t`, cut from its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (found m c (Pipeline.arrRef spec0 w))

/-- The point-feature window is fetched whole at every point and the body leaves it in place, so its staging buffer
    holds the point's block whenever the body starts. -/
theorem input_before_of {c : Dev nD} (dat : Dat τ (Elt F) Unit ℕ (UR sig nD τ) ℕ cfg0 c) (hA : dat.A 0 = found m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the output block -/

/-- The whole input block and the whole output block, as rectangles. -/
abbrev wholeIn : Rect S1000x32x64 := Rect.unit (s := S1000x32x64) ![0, 0, 0] S1000x32x64.size inb_S1000x32x64_S1000x32x64_0_0_0
abbrev wholeOut : Rect S1000x64 := Rect.unit (s := S1000x64) ![0, 0] S1000x64.size inb_S1000x64_S1000x64_0_0

/-- The output block after the body, from the input block `x`: its one store, of the mean of `x` over the points. -/
def pooled (x : Vec F S1000x32x64 .f32) : Vec F S1000x64 .f32 :=
  View.canon [⟨wholeOut, k0_pay1 (View.ld x wholeIn)⟩]

/-- That store covers the block. -/
theorem store_covers (p : Vec F S1000x64 .f32) (y : S1000x64.Idx) :
    ∃ pc ∈ ([⟨wholeOut, p⟩] : List (View.Piece (Elt F) S1000x64 .f32)), y ∈ pc.1.set :=
  View.cover_of_tiled [⟨wholeOut, p⟩] S1000x64.size (by rfl) y

/-! ## The body -/

set_option maxHeartbeats 1000000 in
/-- The body on whole staging buffers, the input's at `x` and the output's at anything, returns with the input's still
    at `x` and the output's at `pooled x`. -/
theorem body_runs (c : Dev nD) (E : Set ℕ) (i : grid0.Coords) (arg1 : Memref sig .tc .vmem S1000x32x64 .f32) (harg1 : arg1.IsWhole) (arg2 : Memref sig .tc .vmem S1000x64 .f32) (harg2 : arg2.IsWhole)
    (x : Vec F S1000x32x64 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (pooled x)) -∗ K ⟨⟩))
      ⊢ wp frame (wpE (defs₀ (F := F)) Variants.none c none) E (cc0__mean_pool_kernel i arg1 harg1 arg2 harg2) K := by
  simp only [cc0__mean_pool_kernel_eq_skeleton]; unfold cc0__mean_pool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (store_covers _)

/-! ## The proof data -/

/-- On core `c`: the arrays as found; after the body at point `t` the input buffer at its block and the output buffer
    at the pooled block; the body uses nothing else. -/
def dats (_ : Fin 1) (c : Dev nD) : Dat τ (Elt F) Unit ℕ (UR sig nD τ) ℕ cfg0 c where
  A w := found m c (Pipeline.arrRef spec0 w)
  after w t := match w with
    | ⟨0, _⟩ => blockAt m c 0 t
    | ⟨1, _⟩ => pooled (blockAt m c 0 t)
  Φ _ := Pipeline.ΦA spec0 c
  q _ := fullShare
  owed _ := 0

theorem arrays_found (c : Dev nD) (w : Fin cfg0.W) : (dats m 0 c).A w = found m c (Pipeline.arrRef spec0 w) := by
  dsimp only [dats]

theorem after_input (c : Dev nD) (t : Fin cfg0.N) : (dats m 0 c).after 0 t = blockAt m c 0 t := by dsimp only [dats]
theorem after_output (c : Dev nD) (t : Fin cfg0.N) : (dats m 0 c).after 1 t = pooled (blockAt m c 0 t) := by dsimp only [dats]

theorem input_before (c : Dev nD) (t : Fin cfg0.N) (d) : (dats m 0 c).before 0 t d = blockAt m c 0 t :=
  input_before_of m (dats m 0 c) (arrays_found m c 0) (after_input m c) t d

/-! ## The body at a grid point -/

def callPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

def callPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem call_runs (c : Dev nD) (t : Fin cfg0.N) :
    callPre m c t ⊢ wp frame (wpE (defs₀ (F := F)) Variants.none c none) Set.univ (bodyAt0 t) (fun _ => callPost m c t) := by
  unfold callPre callPost bodyAt0
  simp only [input_before]
  rw [show (dats m 0 c).Φ t.succ = (dats m 0 c).Φ t.castSucc from rfl,
    show (dats m 0 c).owesAt () t.succ = (dats m 0 c).owesAt () t.castSucc from rfl,
    after_input, after_output]
  iintro ⟨HΦ, Ho, ⟨%d0, H0⟩, ⟨%d1, H1⟩⟩
  iapply (body_runs c Set.univ (grid0.coords t) _ _ _ _ (blockAt m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact call_runs m c t

/-! ## The run -/

set_option backward.isDefEq.respectTransparency.types false in
/-- Every weakly fair execution of @main terminates, faulting nowhere, with the region's two arrays at what the 40
    points leave and every other unscoped buffer at the host lines' values. -/
theorem run_main : θ_run defs (onTc (τ := τ) (main (F := F))) (s₀ m ρ) (Pipeline.FramePost cfgs (dats m) 0 (Pipeline.afterTail₀ cfgs (dats m) 0 (atEntry m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := atEntry m) (opss := [hostOps1]) (hsub := tail_within) (hfresh := tail_allocates_nothing) (hkeep := tail_keeps_arrays)
    (hmain := main_around m Variants.none) (hA := arrays_found m) (hΦ := fun _ _ => rfl)

/-- Both argument arrays end as launched: the point features are a staged input, which the pipeline only reads; the
    coordinate table bypasses the region and no host line writes it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats m 0 c).arrAt_in 0 rfl _).trans ((arrays_found m c 0).trans (found_arg0 m c))),
      ((h c).2 main_arg1 (Pipeline.mem_restRefs_of main_arg1 (by decide) (by decide))).trans (ends_arg1 m (dats m) c)⟩) (run_main m ρ)

end Cert.KernelIdeal.Pool

end
-- ==== Proof.LibMid.lean ====
/-
  Layout operations around a middle axis, read at coordinates: an `[a, b]` array cast to `[a, 1, b]`; an `[a, 1, b]`
  array broadcast over a middle axis of `n`; a `[1, n, b]` array broadcast over a leading axis of `a`; and the sum
  over the middle axis of an `[a, n, b]` array at the extended reals.
-/
import Idealize.ShloMosaic.PureOps.Ideal.Laws
import Idealize.ShloMosaic.Lib.ValueIdx
import Idealize.ShloMosaic.Lib.Pipeline.Value

noncomputable section

namespace Cert.LibMid

open Idealize.ShloMosaic Idealize.ShloMosaic.ValueIdx
open scoped BigOperators

variable {α : Type} {a n b : ℕ}

/-- An `[a, b]` array cast to `[a, 1, b]` reads, at `(p, u, q)`, the operand at `(p, q)`. -/
theorem shapeCast_ab_a1b_apply (x : (⟨2, ![a, b]⟩ : Shape).Idx → α) (h : (⟨2, ![a, b]⟩ : Shape).ShapeCasts ⟨3, ![a, 1, b]⟩)
    (p : Fin a) (u : Fin 1) (q : Fin b) : shapeCast ⟨3, ![a, 1, b]⟩ x h (ix3 p u q) = x (ix2 p q) :=
  shapeCast_apply x h _ _ (by
    have hu : u.val = 0 := by omega
    rw [Shape.rowMajor_val_two, Shape.rowMajor_val_three]
    show p.val * b + q.val = (p.val * 1 + u.val) * b + q.val
    rw [hu, Nat.mul_one, Nat.add_zero])

/-- An `[a, 1, b]` array broadcast to `[a, n, b]` reads, at `(p, c, q)`, the operand at `(p, 0, q)`. -/
theorem broadcastTo_a1b_anb_apply (x : (⟨3, ![a, 1, b]⟩ : Shape).Idx → α) (h : (⟨3, ![a, 1, b]⟩ : Shape).Broadcasts ⟨3, ![a, n, b]⟩)
    (p : Fin a) (c : Fin n) (q : Fin b) : broadcastTo ⟨3, ![a, n, b]⟩ x h (ix3 p c q) = x (ix3 p (0 : Fin 1) q) := by
  refine broadcastTo_apply x h (ix3 p c q) (ix3 p (0 : Fin 1) q) fun ax => ?_
  match ax with
  | ⟨0, _⟩ =>
    show p.val = if a = 1 then 0 else p.val
    split
    · have := p.isLt; omega
    · rfl
  | ⟨1, _⟩ => show 0 = if (1 : ℕ) = 1 then 0 else c.val; rw [if_pos rfl]
  | ⟨2, _⟩ =>
    show q.val = if b = 1 then 0 else q.val
    split
    · have := q.isLt; omega
    · rfl

/-- A `[1, n, b]` array broadcast to `[a, n, b]` reads, at `(p, c, q)`, the operand at `(0, c, q)`. -/
theorem broadcastTo_1nb_anb_apply (x : (⟨3, ![1, n, b]⟩ : Shape).Idx → α) (h : (⟨3, ![1, n, b]⟩ : Shape).Broadcasts ⟨3, ![a, n, b]⟩)
    (p : Fin a) (c : Fin n) (q : Fin b) : broadcastTo ⟨3, ![a, n, b]⟩ x h (ix3 p c q) = x (ix3 (0 : Fin 1) c q) := by
  refine broadcastTo_apply x h (ix3 p c q) (ix3 (0 : Fin 1) c q) fun ax => ?_
  match ax with
  | ⟨0, _⟩ => show 0 = if (1 : ℕ) = 1 then 0 else p.val; rw [if_pos rfl]
  | ⟨1, _⟩ =>
    show c.val = if n = 1 then 0 else c.val
    split
    · have := c.isLt; omega
    · rfl
  | ⟨2, _⟩ =>
    show q.val = if b = 1 then 0 else q.val
    split
    · have := q.isLt; omega
    · rfl

/-- The sum over the middle axis of an `[a, n, b]` array, at the extended reals and at `(p, q)`: the sum over `k` of
    the array at `(p, k, q)`. -/
theorem multiReduction_add_mid_apply {φ : FTy} (src : FVec Ideal ⟨3, ![a, n, b]⟩ φ) (acc : BitVec φ.bits)
    (h : (⟨3, ![a, n, b]⟩ : Shape).Reduces [(1 : Fin 3)] ⟨2, ![a, b]⟩) (hφ : FKind.Formats φ) (hacc : acc = FKind.add.neutral φ hφ)
    (p : Fin a) (q : Fin b) :
    multiReduction .add [(1 : Fin 3)] ⟨2, ![a, b]⟩ src acc h hφ hacc (ix2 p q) = ∑ k : Fin n, src (ix3 p k q) := by
  rw [Ideal.multiReduction_add_single]
  refine Finset.sum_congr rfl fun k _ => congrArg src (funext fun c => Fin.ext ?_)
  match c with
  | ⟨0, _⟩ => rfl
  | ⟨1, _⟩ => rfl
  | ⟨2, _⟩ => rfl

end Cert.LibMid

end
-- ==== Proof.PoolMean.lean ====
/-
  The pillar mean as one function on the extended reals: for point features `x` of shape [N, 32, 64], the mean of
  pillar `n` in channel `c` is `(Σ_k x(n, k, c)) / 32`, the divisor the f32 word of 32. Both programs compute it: the
  kernel block by block (a sum over the middle axis of a [1000, 32, 64] block, then a division by the splat word), the
  reference on the whole array (a host sum over axis 1 started from the zero word, then a division by the repeated
  word). No finiteness is asked: nothing is cancelled or distributed, only a sum and one quotient are named.
-/
import Idealize.ShloMosaic.PureOps.Ideal
import Idealize.ShloMosaic.PureOps.Ideal.Laws
import Idealize.ShloMosaic.Lib.ValueIdx
import proofs.«140408_j50783693308343_1_alg».proof.Proof.LibMid

noncomputable section

namespace Cert.Pool

open Idealize.ShloMosaic Idealize.ShloMosaic.ValueIdx
open scoped BigOperators

/-- The mean of pillar `n`, channel `c`, over the 32 points. -/
def meanAt {N : ℕ} (x : (⟨3, ![N, 32, 64]⟩ : Shape).Idx → EReal) (n : Fin N) (c : Fin 64) : EReal :=
  Ideal.div (∑ k : Fin 32, x (ix3 n k c)) (Ideal.ofBits .f32 0x42000000#32)

/-- The pillar features: the mean at every (pillar, channel). -/
def pillarMean {N : ℕ} (x : (⟨3, ![N, 32, 64]⟩ : Shape).Idx → EReal) : (⟨2, ![N, 64]⟩ : Shape).Idx → EReal :=
  fun i => meanAt x (i 0) (i 1)

theorem pillarMean_ix2 {N : ℕ} (x : (⟨3, ![N, 32, 64]⟩ : Shape).Idx → EReal) (n : Fin N) (c : Fin 64) :
    pillarMean x (ix2 n c) = meanAt x n c := rfl

/-- A block's sum over its middle axis from the zero word, divided by the splat word of 32, is the block's mean. -/
theorem block_mean {N : ℕ} (x : FVec Ideal ⟨3, ![N, 32, 64]⟩ .f32)
    (h : (⟨3, ![N, 32, 64]⟩ : Shape).Reduces [(1 : Fin 3)] ⟨2, ![N, 64]⟩)
    (hφ : FKind.Formats FTy.f32) (hacc : (0x00000000#32 : BitVec 32) = FKind.add.neutral FTy.f32 hφ) (n : Fin N) (c : Fin 64) :
    divf (multiReduction .add [(1 : Fin 3)] ⟨2, ![N, 64]⟩ x 0x00000000#32 h hφ hacc)
        (broadcast ⟨2, ![N, 64]⟩ (Scalar.ofBits (F := Ideal) .f32 0x42000000#32)) (ix2 n c)
      = meanAt x n c :=
  congrArg (fun s => Ideal.div s (Ideal.ofBits .f32 0x42000000#32))
    (Cert.LibMid.multiReduction_add_mid_apply x 0x00000000#32 h hφ hacc n c)

end Cert.Pool

end
-- ==== Proof.PoolValue.lean ====
/-
  What the idealized kernel computes, read off its frame run.

  The pillar features. Point `t` of the grid writes back block `t` — pillars `[1000 t, 1000 t + 1000)`, all 64
  channels — of the output array, holding the mean of block `t` of the point features. Entry `(p, q)` of that block is
  the mean over `k` of the input block's `(p, k, q)`, which is the point features' entry `(1000 t + p, k, q)`: so what
  point `t` writes is block `t` of the whole array's pillar mean. Pillar `n` lies in block `n / 1000`, so the 40 blocks
  cover the array and it ends at the pillar mean of the point features.

  The dense grid. The host lines after the region read only the coordinate table and the pillar features; their
  composed value is the function `scatterOf` of those two, so the result ends at `scatterOf` of the launch
  coordinate table and the pillar mean of the launch point features.
-/
import proofs.«140408_j50783693308343_1_alg».proof.Proof.PoolFrameIdeal
import proofs.«140408_j50783693308343_1_alg».proof.Proof.PoolMean
import Idealize.ShloMosaic.Lib.Pipeline.Value
import Idealize.ShloMosaic.Lib.StableHlo.Run

set_option maxRecDepth 16384

noncomputable section

namespace Cert.KernelIdeal.PoolValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Pool Cert.Pool
open scoped BigOperators

/-! ## The host lines after the region, as one function -/

section Tail
variable {F : FTy → Type} [FloatOps F]

/-- One coordinate column of the table as a length-40000 vector, a negative entry moved up by the axis's extent
    (negative indices count from the end), stood up again as a column. -/
def wrappedColumn (a1 : (⟨S40000x4, .i32⟩ : BufTy).Contents (Elt F)) (off : Fin 2 → Nat) (hs : S40000x4.Slices off S40000x1)
    (extent : BitVec 32) : (⟨S40000x1, .i32⟩ : BufTy).Contents (Elt F) :=
  broadcastInDim S40000x1 ![0] bcast_S40000_S40000x1_0
    (select (cmpi .slt (shapeCast _ (extractStridedSlice S40000x1 off a1 hs) shapeCasts_S40000x1_S40000) (broadcastInDim S40000 ![] bcast_S_S40000 (constantI S_ 32 0#32)))
      (addi (shapeCast _ (extractStridedSlice S40000x1 off a1 hs) shapeCasts_S40000x1_S40000) (broadcastInDim S40000 ![] bcast_S_S40000 (constantI S_ 32 extent)))
      (shapeCast _ (extractStridedSlice S40000x1 off a1 hs) shapeCasts_S40000x1_S40000))

/-- The dense grid: zeros, with row `r` of the pillar features set at (batch, ·, y, x) of the table's row `r`. -/
def scatterOf (a1 : (⟨S40000x4, .i32⟩ : BufTy).Contents (Elt F)) (p : (⟨S40000x64, .f32⟩ : BufTy).Contents (Elt F)) :
    (⟨S4x64x512x512, .f32⟩ : BufTy).Contents (Elt F) :=
  Host.scatter scatter_S4x64x512x512_S40000x3_S40000x64_1_023_023_1 (fun _ b => b)
    (broadcastInDim S4x64x512x512 ![] bcast_S_S4x64x512x512 (constant S_ .f32 0x00000000#32))
    (concatenate S40000x3 1 [⟨S40000x1, wrappedColumn a1 ![0, 0] slices_S40000x4_S40000x1_0_0 4#32⟩,
        ⟨S40000x1, wrappedColumn a1 ![0, 2] slices_S40000x4_S40000x1_0_2 512#32⟩,
        ⟨S40000x1, wrappedColumn a1 ![0, 3] slices_S40000x4_S40000x1_0_3 512#32⟩]
      concatenates_S40000x1_S40000x1_S40000x1_S40000x3_d1)
    p

end Tail

/-! ## The kernel block's payload at an entry -/

/-- Entry `y` of the body's stored value, from the input block `x`: the mean over the block's middle axis. -/
theorem payload_entry (x : Vec Ideal S1000x32x64 .f32) (y : S1000x64.Idx) :
    k0_pay1 (F := Ideal) x y = meanAt x (y 0) (y 1) := by
  obtain ⟨p, q, rfl⟩ : ∃ (p : Fin 1000) (q : Fin 64), y = ix2 p q := ⟨y 0, y 1, eq_ix2 y⟩
  unfold k0_pay1
  exact block_mean x reduces_S1000x32x64_S1000x64 (.inl rfl) rfl p q

/-! ## From blocks to the array -/

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-- The printed index maps over the grid: at point `t` both windows sit at block `t` of the pillar axis and at
    block 0 of every other axis. -/
theorem block_indices : ∀ t : Fin cfg0.N, win0_0.index t (0 : Fin 3) = win0_1.index t (0 : Fin 2) + 0
    ∧ win0_0.index t (1 : Fin 3) = 0 ∧ win0_0.index t (2 : Fin 3) = 0
    ∧ win0_1.index t (1 : Fin 2) = 0
    ∧ win0_1.index t (0 : Fin 2) ≤ 39 :=
  (by decide +kernel : ∀ t : Fin grid0.N, _)

/-- Every block of pillars is some point's. -/
theorem block_reached : ∀ (b : Fin 40), ∃ t : Fin cfg0.N, win0_1.index t = ![b.val, 0] :=
  (by decide +kernel : ∀ (b : Fin 40), ∃ t : Fin grid0.N, win0_1.index t = ![b.val, 0])

/-- What point `t` writes back is block `t` of the pillar mean of the point features as launched. -/
theorem written_back (c : Dev nD) (t : Fin cfg0.N) :
    (dats m 0 c).flushed 1 t = ((cfg0.win 1).blk t).view.read (Elt Ideal) (pillarMean (found m c main_arg0)) := by
  show (cfg0.win 1).cut (grid0.coords t) ((dats m 0 c).after 1 t) = _
  rw [after_output]
  unfold pooled
  rw [View.canon_unit_zero zero2]
  simp only [View.ld_unit_zero (S := S1000x32x64) zero3]
  obtain ⟨e0, e1, e2, e3, e4⟩ := block_indices t
  funext j
  show k0_pay1 (F := Ideal) (blockAt m c 0 t) j = pillarMean (found m c main_arg0) (((cfg0.win 1).blk t).view.emb j)
  refine (payload_entry (blockAt m c 0 t) j).trans ?_
  show Ideal.div (∑ k : Fin 32, blockAt m c 0 t (ix3 (j 0) k (j 1))) _
      = Ideal.div (∑ k : Fin 32, found m c main_arg0 (ix3 ((((cfg0.win 1).blk t).view.emb j) 0) k ((((cfg0.win 1).blk t).view.emb j) 1))) _
  refine congrArg (fun s => Ideal.div s (Ideal.ofBits .f32 0x42000000#32)) (Finset.sum_congr rfl fun k _ => ?_)
  show found m c main_arg0 (((cfg0.win 0).blk t).view.emb (ix3 (j 0) k (j 1))) = _
  refine congrArg (found m c main_arg0) (funext fun a => Fin.ext ?_)
  match a with
  | ⟨0, _⟩ => show win0_0.index t (0 : Fin 3) * 1000 + 1 * (j 0).val = win0_1.index t (0 : Fin 2) * 1000 + 1 * (j 0).val; omega
  | ⟨1, _⟩ => show win0_0.index t (1 : Fin 3) * 32 + 1 * k.val = k.val; omega
  | ⟨2, _⟩ => show win0_0.index t (2 : Fin 3) * 64 + 1 * (j 1).val = win0_1.index t (1 : Fin 2) * 64 + 1 * (j 1).val; omega

/-- An index of the pillar features is in point `t`'s block iff each coordinate is in the block's range. -/
theorem in_block (t : Fin cfg0.N) (i : S40000x64.Idx) :
    i ∈ ((cfg0.win 1).blk t).view.set ↔ ∀ a : Fin 2, win0_1.index t a * S1000x64.size a ≤ (i a).val ∧ (i a).val < win0_1.index t a * S1000x64.size a + S1000x64.size a := by
  show i ∈ ((View.whole main_v0).slice (win0_1.rect t)).set ↔ _
  rw [View.set_slice_whole, Rect.mem_set_unit]
  exact Iff.rfl

/-- Pillar `n` lies in block `n / 1000`: the 40 blocks cover the array. -/
theorem blocks_cover (i : S40000x64.Idx) :
    ∃ t : Fin cfg0.N, (cfg0.win 1).flush t = true ∧ i ∈ ((cfg0.win 1).blk t).view.set := by
  have hi0 : (i 0).val < 40000 := (i 0).isLt
  have hi1 : (i 1).val < 64 := (i 1).isLt
  obtain ⟨t, ht⟩ := block_reached ⟨(i 0).val / 1000, by omega⟩
  have q0 : win0_1.index t (0 : Fin 2) = (i 0).val / 1000 := congrFun ht 0
  have q1 : win0_1.index t (1 : Fin 2) = 0 := congrFun ht 1
  refine ⟨t, flush0_1 t, ?_⟩
  rw [in_block]
  intro a
  match a with
  | ⟨0, _⟩ => show win0_1.index t (0 : Fin 2) * 1000 ≤ (i 0).val ∧ (i 0).val < win0_1.index t (0 : Fin 2) * 1000 + 1000; omega
  | ⟨1, _⟩ => show win0_1.index t (1 : Fin 2) * 64 ≤ (i 1).val ∧ (i 1).val < win0_1.index t (1 : Fin 2) * 64 + 64; omega

/-- The pillar features after the run: the pillar mean of the point features as launched. -/
theorem pillars_end (c : Dev nD) : (dats m 0 c).arrAt 1 cfg0.N = pillarMean (m ((c : Thread nD τ).loc main_arg0)) :=
  (dats m 0 c).arrAt_eq_of_cover 1 (pillarMean (found m c main_arg0)) (fun t _ => written_back m c t) blocks_cover

end Cert.KernelIdeal.PoolValue

end
-- ==== Proof.PoolTail.lean ====
/-
  The dense grid the idealized kernel ends with.

  The 34 host lines after the region compute, from whatever the buffers hold when the region is left, one function
  of two of them: the coordinate table and the pillar features (`scatterOf`). The region leaves the coordinate table
  as launched and the pillar features at the pillar mean of the point features, so the result buffer ends at
  `scatterOf` of the launch coordinate table and that pillar mean; the argument arrays end as launched.
-/
import proofs.«140408_j50783693308343_1_alg».proof.Proof.PoolValue

set_option maxRecDepth 16384

noncomputable section

namespace Cert.KernelIdeal.PoolValue

open Idealize.ShloMosaic Idealize.ShloMosaic.TcCoe Idealize.ShloMosaic.ValueIdx
open Idealize.SL Idealize.SL.Sem Idealize.ShloMosaic.StableHlo
open Idealize.ShloMosaic.Pipeline (Dat Cfg Window)
open Cert.KernelIdeal Cert.KernelIdeal.Gen Cert.KernelIdeal.Pool Cert.Pool

section
variable {F : FTy → Type} [FloatOps F]

set_option maxHeartbeats 2000000 in
/-- The host lines' result from any buffer contents `W`: the scatter of `W`'s coordinate table and pillar features.
    Every other buffer the lines read is one an earlier line of theirs wrote. -/
theorem tail_value (W : Valuation τ sig (Elt F)) :
    StableHlo.after (hostOps1 (F := F)) W (Proc.devRef .tc main_v27)
      = scatterOf (W (Proc.devRef .tc main_arg1)) (W (Proc.devRef .tc main_v0)) := by
  after_results_simp <;> rfl

end

variable (m : (ℓ : Loc nD τ sig) → Buf (Elt Ideal) ℓ) (ρ : Dev nD → PrngReg)

/-- After the host lines the result buffer holds the scatter of the launch coordinate table and of what the region
    left in the pillar features: the table is no array of the region, the pillar features are its output array. -/
theorem grid_ends (c : Dev nD) :
    Pipeline.afterTail₀ cfgs (dats m) 0 (atEntry m) [hostOps1] c main_v27
      = scatterOf (m ((c : Thread nD τ).loc main_arg1)) ((dats m 0 c).arrAt 1 cfg0.N) := by
  unfold Pipeline.afterTail₀
  refine (tail_value (F := Ideal) _).trans ?_
  rw [Pipeline.withArrays_of_ne _ c (atEntry m c) _ main_arg1 (by exact (by decide : ∀ w, Pipeline.arrRef spec0 w ≠ main_arg1))]
  exact congrArg (scatterOf (m ((c : Thread nD τ).loc main_arg1)))
    (Pipeline.withArrays_arr spec0 launch0.win.arr_inj c (atEntry m c) (fun w => (dats m 0 c).arrAt w cfg0.N) 1)

/-- The idealized kernel's run, read back: the result is the scatter of the coordinate table and the pillar mean of
    the point features, both as launched, and both argument arrays end unchanged. -/
theorem run : θ_run defs (onTc (τ := τ) (main (F := Ideal))) ⟨m, fun _ => 0, ρ⟩ (fun r => ∀ c : Dev nD,
      r.2.mem ((c.tc : Thread nD τ).loc main_v27)
          = scatterOf (m ((c.tc : Thread nD τ).loc main_arg1)) (pillarMean (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v27 (Pipeline.mem_restRefs_of main_v27 (by decide) (by decide))).trans
        ((grid_ends m c).trans (congrArg (scatterOf (m ((c.tc : Thread nD τ).loc main_arg1))) (pillars_end m c))),
      ((h c).1 0).trans (((dats m 0 c).arrAt_in 0 rfl _).trans ((arrays_found m c 0).trans (found_arg0 m c))),
      ((h c).2 main_arg1 (Pipeline.mem_restRefs_of main_arg1 (by decide) (by decide))).trans (ends_arg1 m (dats m) c)⟩)
    (run_main m ρ)

end Cert.KernelIdeal.PoolValue

end
-- ==== Proof.PoolRef.lean ====
/-
  The reference's pillar features are the pillar mean.

  The reference sums the point features over axis 1 from the zero word and divides by the word of 32 repeated over
  the array. At an entry `(n, c)` that is `(0 + Σ_k x(n, k, c)) / 32` on the extended reals; the zero word is the number
  zero, which the sum absorbs, and what is left is the mean as the kernel's blocks compute it.
-/
import proofs.«140408_j50783693308343_1_alg».proof.Proof.Gen.ReferenceIdeal.Read
import proofs.«140408_j50783693308343_1_alg».proof.Proof.PoolMean

noncomputable section

namespace Cert.ReferenceIdeal.PoolRef

open Idealize.ShloMosaic Idealize.ShloMosaic.ValueIdx
open Cert.ReferenceIdeal Cert.ReferenceIdeal.Read Cert.Pool
open scoped BigOperators

/-- The entries the reference's sum at `(n, c)` runs over are `(n, k, c)`. -/
theorem summed_entry (i : S40000x64.Idx) (k : Fin 32) : idx_main_v0 i k = ix3 (i 0) k (i 1) :=
  funext fun a => Fin.ext (by match a with | ⟨0, _⟩ => rfl | ⟨1, _⟩ => rfl | ⟨2, _⟩ => rfl)

/-- The reference's quotient stage is the pillar mean of its argument. -/
theorem reference_mean (x : (⟨S40000x32x64, .f32⟩ : BufTy).Contents (Elt Ideal)) :
    val_main_v2 (F := Ideal) x = pillarMean x := by
  funext i
  rw [val_main_v2_apply, val_main_v0_apply, val_main_v1_apply, val_main_cst_apply, val_main_cst_0_apply]
  simp only [summed_entry, Ideal.hostDivf_def, Ideal.ofBits_def, Ideal.ofBits_zero_f32, zero_add]
  rfl

end Cert.ReferenceIdeal.PoolRef

end
-- ==== Proof.lean ====
/-
  Mean pooling of pillars followed by a scatter into the dense grid: the kernel against its jnp reference.

  Both programs compute the same two things. First the pillar features: for each of the 40000 pillars and 64
  channels the mean of its 32 points, `(Σ_k x(n, k, c)) / 32` on the extended reals — the kernel block by block over
  a grid of 40 points (1000 pillars each), the reference by one host sum and one host quotient. Then, from the
  coordinate table, the three index columns (batch, y, x), each negative entry moved up by its axis's extent, joined
  into a [40000, 3] table, and the pillar features scattered row by row into a [4, 64, 512, 512] array of zeros. The
  second step is literally the same function of the coordinate table and the pillar features in both programs, so it
  is never opened: the two results are that one function applied to equal arguments.

  The three frames: the kernel's two programs run to the end with both argument arrays unchanged because the region
  only reads the point features, the coordinate table bypasses the region, and no host line writes either; the
  reference is host lines only. Nothing here uses the finiteness of the inputs: the only facts about the extended
  reals that are used are that the f32 zero word is the number zero and that zero is neutral for addition.
-/
import proofs.«140408_j50783693308343_1_alg».proof.Defs
import proofs.«140408_j50783693308343_1_alg».proof.Proof.Gen.Kernel
import proofs.«140408_j50783693308343_1_alg».proof.Proof.Gen.KernelIdeal
import proofs.«140408_j50783693308343_1_alg».proof.Proof.Gen.ReferenceIdeal
import proofs.«140408_j50783693308343_1_alg».proof.Proof.Gen.Pre_finite_inputs
import proofs.«140408_j50783693308343_1_alg».proof.Proof.Gen.ReferenceIdeal.Run
import proofs.«140408_j50783693308343_1_alg».proof.Proof.Gen.ReferenceIdeal.Read
import proofs.«140408_j50783693308343_1_alg».proof.Proof.PoolFrameBits
import proofs.«140408_j50783693308343_1_alg».proof.Proof.PoolFrameIdeal
import proofs.«140408_j50783693308343_1_alg».proof.Proof.PoolValue
import proofs.«140408_j50783693308343_1_alg».proof.Proof.PoolTail
import proofs.«140408_j50783693308343_1_alg».proof.Proof.PoolRef
import Idealize.ShloMosaic.Adequacy
import Idealize.ShloMosaic.Init

noncomputable section

namespace Cert.Proof

open Idealize.ShloMosaic Idealize.ShloMosaic.TcCoe Idealize.SL.Sem

/-- The reference's last stage is the shared scatter of its coordinate table and its quotient stage: the host lines
    are the same in both programs, read here without opening any of them. -/
theorem reference_grid (x0 : (⟨Cert.ReferenceIdeal.S40000x32x64, .f32⟩ : BufTy).Contents (Elt Ideal))
    (x1 : (⟨Cert.ReferenceIdeal.S40000x4, .i32⟩ : BufTy).Contents (Elt Ideal)) :
    Cert.ReferenceIdeal.Read.val_main_v29 (F := Ideal) x0 x1
      = Cert.KernelIdeal.PoolValue.scatterOf (F := Ideal) x1 (Cert.ReferenceIdeal.Read.val_main_v2 (F := Ideal) x0) := rfl

theorem frame_kernel : Cert.frame_Kernel := fun m ρ _ => Cert.Kernel.Pool.frame m ρ
theorem frame_ideal : Cert.frame_KernelIdeal := fun m ρ _ => Cert.KernelIdeal.Pool.frame m ρ
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both results are the scatter of the coordinate table and the pillar mean of the point features. -/
theorem algebraic : Cert.algebraic_KernelIdeal_ReferenceIdeal := by
  intro m ρ m' ρ' _ hagree
  refine ⟨_, Cert.KernelIdeal.PoolValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  refine (Cert.ReferenceIdeal.Read.val_main_v29_eq _ _).trans ((reference_grid _ _).trans ?_)
  exact congrArg (Cert.KernelIdeal.PoolValue.scatterOf _) (Cert.ReferenceIdeal.PoolRef.reference_mean _)

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
